-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x1024 : Shape := ⟨3, ![8192, 4, 1024]⟩
abbrev S4096x1024 : Shape := ⟨2, ![4096, 1024]⟩
abbrev S4096 : Shape := ⟨1, ![4096]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4x1024 .f32) (main_arg1 : FVec F S4096x1024 .f32) (main_arg2 : FVec F S4096 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4x1024 : Shape := ⟨3, ![8192, 4, 1024]⟩
abbrev S4096x1024 : Shape := ⟨2, ![4096, 1024]⟩
abbrev S4096 : Shape := ⟨1, ![4096]⟩
abbrev S32768x1024 : Shape := ⟨2, ![32768, 1024]⟩
abbrev S1x4096 : Shape := ⟨2, ![1, 4096]⟩
abbrev S32768x4096 : Shape := ⟨2, ![32768, 4096]⟩
abbrev S512x1024 : Shape := ⟨2, ![512, 1024]⟩
abbrev S512x4096 : Shape := ⟨2, ![512, 4096]⟩
abbrev S8192x4x4096 : Shape := ⟨3, ![8192, 4, 4096]⟩

abbrev nBuf : Space → Nat
  | .hbm => 8
  | .vmem => 6
  | .smem => 0
  | _ => 0

abbrev bufTy : (tb : Table) → Fin (tcTables nBuf tb) → BufTy
  | .hbm, ⟨0, _⟩ => ⟨S8192x4x1024, .f32⟩
  | .hbm, ⟨1, _⟩ => ⟨S4096x1024, .f32⟩
  | .hbm, ⟨2, _⟩ => ⟨S4096, .f32⟩
  | .hbm, ⟨3, _⟩ => ⟨S32768x1024, .f32⟩
  | .hbm, ⟨4, _⟩ => ⟨S1x4096, .f32⟩
  | .hbm, ⟨5, _⟩ => ⟨S4096x1024, .bf16⟩
  | .hbm, ⟨6, _⟩ => ⟨S32768x4096, .f32⟩
  | .hbm, ⟨7, _⟩ => ⟨S8192x4x4096, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x4x1024_S32768x1024 : S8192x4x1024.ShapeCasts S32768x1024
  shapeCasts_S4096_S1x4096 : S4096.ShapeCasts S1x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S32768x4096_S8192x4x4096 : S32768x4096.ShapeCasts S8192x4x4096
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S32768x4096.size a
  hwx0_3 : ∀ i : grid0.Coords, EltTy.bits .f32 = 32 ∨ (Rect.block (s := S32768x4096) S512x4096.size (cc0_transform_3 i) (hinb0_3 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4x1024 : Shape := ⟨3, ![8192, 4, 1024]⟩
abbrev S4096x1024 : Shape := ⟨2, ![4096, 1024]⟩
abbrev S4096 : Shape := ⟨1, ![4096]⟩
abbrev S8192x4x4096 : Shape := ⟨3, ![8192, 4, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S4096x1024, .f32⟩
  | .hbm, ⟨2, _⟩ => ⟨S4096, .f32⟩
  | .hbm, ⟨3, _⟩ => ⟨S8192x4x4096, .f32⟩
  | .hbm, ⟨4, _⟩ => ⟨S1x1x4096, .f32⟩
  | .hbm, ⟨5, _⟩ => ⟨S8192x4x4096, .f32⟩
  | .hbm, ⟨6, _⟩ => ⟨S8192x4x4096, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8192x4x4096_0_1_2 : S1x1x4096.BroadcastsInDim S8192x4x4096 (![0, 1, 2] : Fin 3 → Fin S8192x4x4096.rank)
  dot_S8192x4x1024_S4096x1024_S8192x4x4096_2_1_01_0_n_n_wf : DotDims.WF S8192x4x1024 S4096x1024 S8192x4x4096 [2] [1] [0, 1] [0] [] []

variable [Facts₀]

def dot_S8192x4x1024_S4096x1024_S8192x4x4096_2_1_01_0_n_n : DotDims S8192x4x1024 S4096x1024 S8192x4x4096 where
  lhsContracting := [2]
  rhsContracting := [1]
  lhsNonContracting := [0, 1]
  rhsNonContracting := [0]
  lhsBatch := []
  rhsBatch := []
  wf := dot_S8192x4x1024_S4096x1024_S8192x4x4096_2_1_01_0_n_n_wf

class Facts : Prop extends Facts₀ where

variable [Facts]
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.KernelEntry.lean ====
/-
  One entry of what the kernel body stores. The body multiplies its 512 × 1024 block of rows by the transpose of the
  4096 × 1024 weight matrix, starting from the zero matrix, and adds the bias row to every row of the product. Over the
  extended reals a change of number format is the identity and the product's entry (p, q) is the sum over k of
  row p of the block times row q of the weights; the bias row, repeated over the 512 rows, contributes its entry q.
-/
import proofs.«175557_j44856638439896_2_alg».proof.Proof.Gen.KernelIdeal.Skeleton
import proofs.«175557_j44856638439896_2_alg».proof.Proof.LibMatmulT
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.ValueIdx

/-- The product's dimension numbers name, at result entry j and contraction index q, the left operand's entry
    (j₀, q) … -/
theorem lhs_row (j : S512x4096.Idx) (q : dot_S512x1024_S4096x1024_S512x4096_1_1_0_0_n_n.contr.Idx) :
    (dot_S512x1024_S4096x1024_S512x4096_1_1_0_0_n_n.lhsIdx j q 0).val = (j 0).val := by
  unfold DotDims.lhsIdx
  rw [dif_neg (show ¬(0 : Fin S512x1024.rank) ∈ dot_S512x1024_S4096x1024_S512x4096_1_1_0_0_n_n.lhsBatch by decide),
    dif_pos (show (0 : Fin S512x1024.rank) ∈ dot_S512x1024_S4096x1024_S512x4096_1_1_0_0_n_n.lhsNonContracting by decide)]
  rfl
theorem lhs_col (j : S512x4096.Idx) (q : dot_S512x1024_S4096x1024_S512x4096_1_1_0_0_n_n.contr.Idx) :
    (dot_S512x1024_S4096x1024_S512x4096_1_1_0_0_n_n.lhsIdx j q 1).val = (q ⟨0, by decide⟩).val :=
  dot_S512x1024_S4096x1024_S512x4096_1_1_0_0_n_n.lhsIdx_val_of_single rfl j q
/-- … and the right operand's entry (j₁, q). -/
theorem rhs_row (j : S512x4096.Idx) (q : dot_S512x1024_S4096x1024_S512x4096_1_1_0_0_n_n.contr.Idx) :
    (dot_S512x1024_S4096x1024_S512x4096_1_1_0_0_n_n.rhsIdx j q 0).val = (j 1).val := by
  unfold DotDims.rhsIdx
  rw [dif_neg (show ¬(0 : Fin S4096x1024.rank) ∈ dot_S512x1024_S4096x1024_S512x4096_1_1_0_0_n_n.rhsBatch by decide),
    dif_pos (show (0 : Fin S4096x1024.rank) ∈ dot_S512x1024_S4096x1024_S512x4096_1_1_0_0_n_n.rhsNonContracting by decide)]
  rfl
theorem rhs_col (j : S512x4096.Idx) (q : dot_S512x1024_S4096x1024_S512x4096_1_1_0_0_n_n.contr.Idx) :
    (dot_S512x1024_S4096x1024_S512x4096_1_1_0_0_n_n.rhsIdx j q 1).val = (q ⟨0, by decide⟩).val :=
  dot_S512x1024_S4096x1024_S512x4096_1_1_0_0_n_n.rhsIdx_val_of_single rfl j q

/-- Entry (p, q) of the stored block: the dot product of row p of the loaded rows with row q of the loaded weights,
    plus entry q of the loaded bias row. -/
theorem stored_apply (x : Vec Ideal S512x1024 .f32) (w : Vec Ideal S4096x1024 .bf16) (b : Vec Ideal S1x4096 .f32)
    (p : Fin 512) (q : Fin 4096) :
    k0_pay1 (F := Ideal) x w b (ix2 p q)
      = (∑ k : Fin 1024, x (ix2 p k) * w (ix2 q k)) + b (ix2 (0 : Fin 1) q) := by
  unfold k0_pay1
  simp only [shapeCast_self]
  rw [addf_apply]
  refine congrArg₂ (· + ·) ?_ ?_
  · exact matmulT_zero_apply dot_S512x1024_S4096x1024_S512x4096_1_1_0_0_n_n none rfl rfl lhs_row lhs_col rhs_row rhs_col
      (truncf .bf16 x bitsLt_bf16_f32) w p q
  · exact broadcastTo_1b_ab_apply b broadcasts_S1x4096_S512x4096 p q

end Cert.KernelIdeal.Entry

end
-- ==== Proof.Spec.lean ====
/-
  A linear layer: every row of the input, a vector of 1024 numbers, is multiplied by the transpose of a
  4096 × 1024 weight matrix and a bias vector of 4096 numbers is added. The input holds 8192 × 4 rows; the same
  rows listed one after the other form a 32768 × 1024 matrix, row (s, b) of the input being row 4·s + b of the
  matrix. Both arrangements are stated here over the extended reals, entry by entry, and the second is shown to
  be the first with its rows renumbered.
-/
import Idealize.ShloMosaic.Lib.ValueIdx
import Idealize.ShloMosaic.PureOps.Ideal

noncomputable section

open scoped BigOperators

namespace Cert.Linear

open Idealize.ShloMosaic Idealize.ShloMosaic.ValueIdx

/-- The layer on the input as given: entry (s, b, o) is the dot product of input row (s, b) with weight row o,
    plus bias entry o. -/
def layer (x : FVec Ideal ⟨3, ![8192, 4, 1024]⟩ .f32) (w : FVec Ideal ⟨2, ![4096, 1024]⟩ .f32)
    (bias : FVec Ideal ⟨1, ![4096]⟩ .f32) : FVec Ideal ⟨3, ![8192, 4, 4096]⟩ .f32 :=
  fun i => (∑ k : Fin 1024, x (ix3 (i 0) (i 1) k) * w (ix2 (i 2) k)) + bias (ix1 (i 2))

/-- The layer on the rows listed as one matrix, the bias laid out as a single row: entry (r, o) is the dot product
    of matrix row r with weight row o, plus the bias row's entry o. -/
def layerRows (x : FVec Ideal ⟨2, ![32768, 1024]⟩ .f32) (w : FVec Ideal ⟨2, ![4096, 1024]⟩ .bf16)
    (bias : FVec Ideal ⟨2, ![1, 4096]⟩ .f32) : FVec Ideal ⟨2, ![32768, 4096]⟩ .f32 :=
  fun i => (∑ k : Fin 1024, x (ix2 (i 0) k) * w (ix2 (i 1) k)) + bias (ix2 (0 : Fin 1) (i 1))

end Cert.Linear

end
-- ==== Proof.KernelBlocks.lean ====
/-
  From blocks to the whole array. The grid has 64 points; point t reads rows 512·t … 512·t + 511 of the 32768 × 1024
  matrix of rows, the whole weight matrix and the whole bias row, and writes back rows 512·t … 512·t + 511 of the
  32768 × 4096 result. What it writes is that block of ONE matrix — the layer applied to all the rows — because entry
  (p, q) of the stored block depends only on row 512·t + p of the rows. The 64 blocks tile the result, so after the last
  point the result array is that matrix.
-/
import proofs.«175557_j44856638439896_2_alg».proof.Proof.Gen.KernelIdeal.Frame
import proofs.«175557_j44856638439896_2_alg».proof.Proof.KernelEntry
import proofs.«175557_j44856638439896_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block each window holds at point t: block row t of the rows and of the result, the one block of the weights and
    of the bias row. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows, the weights and the bias row as the region finds them. -/
abbrev rowsIn (c : Dev nD) : FVec Ideal S32768x1024 .f32 := V m c main_v0
abbrev weightsIn (c : Dev nD) : FVec Ideal S4096x1024 .bf16 := V m c main_v2
abbrev biasIn (c : Dev nD) : FVec Ideal S1x4096 .f32 := V m c main_v1

/-- Entry (p, k) of the block of rows at point t is entry (512·t + p, k) of the rows. -/
theorem rows_block (c : Dev nD) (t : Fin cfg0.N) (p : Fin 512) (k : Fin 1024) (r : Fin 32768) (hr : r.val = t.val * 512 + p.val) :
    iblk m c 0 t (ix2 p k) = rowsIn m c (ix2 r k) := by
  obtain ⟨e0, e1, -⟩ := block_index t
  show V m c main_v0 (((cfg0.win 0).blk t).view.emb (ix2 p k)) = V m c main_v0 (ix2 r k)
  refine congrArg (V m c main_v0) ?_
  funext a; apply Fin.ext
  match a with
  | ⟨0, _⟩ => show win0_0.index t (0 : Fin 2) * 512 + 1 * p.val = r.val; omega
  | ⟨1, _⟩ => show win0_0.index t (1 : Fin 2) * 1024 + 1 * k.val = k.val; omega

/-- The block of weights at every point is the whole weight matrix. -/
theorem weights_block (c : Dev nD) (t : Fin cfg0.N) (q : Fin 4096) (k : Fin 1024) :
    iblk m c 1 t (ix2 q k) = weightsIn m c (ix2 q k) := by
  obtain ⟨-, -, e0, e1, -⟩ := block_index t
  show V m c main_v2 (((cfg0.win 1).blk t).view.emb (ix2 q k)) = V m c main_v2 (ix2 q k)
  refine congrArg (V m c main_v2) ?_
  funext a; apply Fin.ext
  match a with
  | ⟨0, _⟩ => show win0_1.index t (0 : Fin 2) * 4096 + 1 * q.val = q.val; omega
  | ⟨1, _⟩ => show win0_1.index t (1 : Fin 2) * 1024 + 1 * k.val = k.val; omega

/-- The block of the bias row at every point is the whole bias row. -/
theorem bias_block (c : Dev nD) (t : Fin cfg0.N) (q : Fin 4096) :
    iblk m c 2 t (ix2 (0 : Fin 1) q) = biasIn m c (ix2 (0 : Fin 1) q) := by
  obtain ⟨-, -, -, -, e0, e1, -⟩ := block_index t
  show V m c main_v1 (((cfg0.win 2).blk t).view.emb (ix2 (0 : Fin 1) q)) = V m c main_v1 (ix2 (0 : Fin 1) q)
  refine congrArg (V m c main_v1) ?_
  funext a; apply Fin.ext
  match a with
  | ⟨0, _⟩ => show win0_2.index t (0 : Fin 2) * 1 + 1 * 0 = 0; omega
  | ⟨1, _⟩ => show win0_2.index t (1 : Fin 2) * 4096 + 1 * q.val = q.val; omega

/-- What point t writes back is block t of the layer applied to all the rows. -/
theorem flushed_eq (c : Dev nD) (t : Fin cfg0.N) :
    (dats m 0 c).flushed 3 t
      = ((cfg0.win 3).blk t).view.read (Elt Ideal) (Cert.Linear.layerRows (rowsIn m c) (weightsIn m c) (biasIn m c)) := by
  show (cfg0.win 3).cut (grid0.coords t) ((dats m 0 c).after 3 t) = _
  rw [after0_3]
  unfold out0_3
  rw [View.canon_unit_zero zero_offsets]
  simp only [View.ld_unit_zero (S := S512x1024) zero_offsets, View.ld_unit_zero (S := S4096x1024) zero_offsets,
    View.ld_unit_zero (S := S1x4096) zero_offsets]
  obtain ⟨-, -, -, -, -, -, e0, e1⟩ := block_index t
  funext j
  obtain ⟨p, q, rfl⟩ : ∃ (p : Fin 512) (q : Fin 4096), j = ix2 p q := ⟨j 0, j 1, eq_ix2 j⟩
  have ht : t.val < 64 := t.isLt
  have hp : p.val < 512 := p.isLt
  refine (Entry.stored_apply (iblk m c 0 t) (iblk m c 1 t) (iblk m c 2 t) p q).trans ?_
  show _ = Cert.Linear.layerRows (rowsIn m c) (weightsIn m c) (biasIn m c) (((cfg0.win 3).blk t).view.emb (ix2 p q))
  have hrow : (((cfg0.win 3).blk t).view.emb (ix2 p q) 0).val = t.val * 512 + p.val := by
    show win0_3.index t (0 : Fin 2) * 512 + 1 * p.val = _; omega
  have hcol : (((cfg0.win 3).blk t).view.emb (ix2 p q) 1) = q := by
    apply Fin.ext; show win0_3.index t (1 : Fin 2) * 4096 + 1 * q.val = _; omega
  unfold Cert.Linear.layerRows
  rw [hcol]
  refine congrArg₂ (· + ·) (Finset.sum_congr rfl fun k _ => congrArg₂ (· * ·) ?_ ?_) ?_
  · exact rows_block m c t p k _ hrow
  · exact weights_block m c t q k
  · exact bias_block m c t q

/-- An index of the result is in point t's block iff its row is among the block's 512 rows. -/
theorem mem_block (t : Fin cfg0.N) (i : S32768x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v3).slice (win0_3.rect t)).set ↔ _
  rw [View.set_slice_whole, Rect.mem_set_unit]
  exact Iff.rfl

/-- Row r of the result is written by point r / 512: the 64 blocks tile the result. -/
theorem covered (i : S32768x4096.Idx) :
    ∃ t : Fin cfg0.N, (cfg0.win 3).flush t = true ∧ i ∈ ((cfg0.win 3).blk t).view.set := by
  have hi0 : (i 0).val < 32768 := (i 0).isLt
  have hi1 : (i 1).val < 4096 := (i 1).isLt
  let t : Fin cfg0.N := ⟨(i 0).val / 512, by show (i 0).val / 512 < 64; omega⟩
  have htv : t.val = (i 0).val / 512 := rfl
  obtain ⟨-, -, -, -, -, -, e0, e1⟩ := block_index t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The result array after the last point: the layer applied to all the rows. -/
theorem result_array (c : Dev nD) :
    (dats m 0 c).arrAt 3 cfg0.N = Cert.Linear.layerRows (rowsIn m c) (weightsIn m c) (biasIn m c) :=
  (dats m 0 c).arrAt_eq_of_cover 3 _ (fun t _ => flushed_eq m c t) covered

end Cert.KernelIdeal.Blocks

end
-- ==== Proof.LibTile.lean ====
/-
  Layout steps of a kernel that works on a tile of rows, read at an index written by coordinates.

  A tile [a, b, c] (a batch rows, b time steps, c lanes) is flattened to [a*b, c] for a matrix product and
  the product is unflattened again; one time step is cut out of the tile and its unit axis dropped; a run of
  lanes is cut out; a lane vector [c] is laid out as [1, 1, c] and repeated over every row and time step.
  Each lemma says which single entry of the operand the result holds at (r, s, k).
-/
import Idealize.ShloMosaic.Lib.Pipeline.Value
import Idealize.ShloMosaic.Lib.ValueIdx
import Idealize.ShloMosaic.Lib.ValueLayout

noncomputable section

namespace Cert.LibTile

open Idealize.ShloMosaic Idealize.ShloMosaic.ValueIdx

variable {α : Type}

/-- A tile [a, b, c] flattened to [n, c] holds, in row `r * b + s`, the tile's row (r, s). -/
theorem flatten_apply {a b c n : ℕ} (x : (⟨3, ![a, b, c]⟩ : Shape).Idx → α)
    (h : (⟨3, ![a, b, c]⟩ : Shape).ShapeCasts ⟨2, ![n, c]⟩) (r : Fin a) (s : Fin b) (k : Fin c) (p : Fin n)
    (hp : p.val = r.val * b + s.val) :
    shapeCast ⟨2, ![n, c]⟩ x h (ix2 p k) = x (ix3 r s k) :=
  shapeCast_apply x h _ _ (by
    rw [Shape.rowMajor_val_three, Shape.rowMajor_val_two]
    show (r.val * b + s.val) * c + k.val = p.val * c + k.val
    rw [hp])

/-- An [n, c] array unflattened to a tile [a, b, c] holds, at (r, s), the array's row `r * b + s`. -/
theorem unflatten_apply {a b c n : ℕ} (y : (⟨2, ![n, c]⟩ : Shape).Idx → α)
    (h : (⟨2, ![n, c]⟩ : Shape).ShapeCasts ⟨3, ![a, b, c]⟩) (r : Fin a) (s : Fin b) (k : Fin c) (p : Fin n)
    (hp : p.val = r.val * b + s.val) :
    shapeCast ⟨3, ![a, b, c]⟩ y h (ix3 r s k) = y (ix2 p k) :=
  shapeCast_apply y h _ _ (by
    rw [Shape.rowMajor_val_three, Shape.rowMajor_val_two]
    show p.val * c + k.val = (r.val * b + s.val) * c + k.val
    rw [hp])

/-- Time step `s` cut out of a tile ([a, 1, c] at offset (0, s, 0)) with its unit axis dropped holds, at
    (r, k), the tile's entry (r, s, k). -/
theorem step_apply {a b c : ℕ} (x : (⟨3, ![a, b, c]⟩ : Shape).Idx → α) (s : ℕ)
    (hs : (⟨3, ![a, b, c]⟩ : Shape).Slices ![0, s, 0] ⟨3, ![a, 1, c]⟩)
    (hc : (⟨3, ![a, 1, c]⟩ : Shape).ShapeCasts ⟨2, ![a, c]⟩) (r : Fin a) (k : Fin c) (s' : Fin b) (hs' : s'.val = s) :
    shapeCast ⟨2, ![a, c]⟩ (extractStridedSlice ⟨3, ![a, 1, c]⟩ ![0, s, 0] x hs) hc (ix2 r k) = x (ix3 r s' k) := by
  refine (shapeCast_apply _ hc (ix2 r k) (ix3 r (⟨0, Nat.one_pos⟩ : Fin 1) k) ?_).trans ?_
  · rw [Shape.rowMajor_val_three, Shape.rowMajor_val_two]
    show (r.val * 1 + 0) * c + k.val = r.val * c + k.val
    rw [Nat.mul_one, Nat.add_zero]
  · exact extractStridedSlice_apply _ x hs _ _ (fun ax => match ax with
      | ⟨0, _⟩ => by show r.val = 0 + r.val; omega
      | ⟨1, _⟩ => by show s'.val = s + 0; omega
      | ⟨2, _⟩ => by show k.val = 0 + k.val; omega)

/-- A run of lanes starting at `off` cut out of a tile holds, at (r, s, k), the tile's entry (r, s, off + k). -/
theorem lanes_apply {a b c c' : ℕ} (x : (⟨3, ![a, b, c]⟩ : Shape).Idx → α) (off : ℕ)
    (h : (⟨3, ![a, b, c]⟩ : Shape).Slices ![0, 0, off] ⟨3, ![a, b, c']⟩) (r : Fin a) (s : Fin b) (k : Fin c')
    (k' : Fin c) (hk : k'.val = off + k.val) :
    extractStridedSlice ⟨3, ![a, b, c']⟩ ![0, 0, off] x h (ix3 r s k) = x (ix3 r s k') :=
  extractStridedSlice_apply _ x h _ _ (fun ax => match ax with
    | ⟨0, _⟩ => by show r.val = 0 + r.val; omega
    | ⟨1, _⟩ => by show s.val = 0 + s.val; omega
    | ⟨2, _⟩ => by show k'.val = off + k.val; exact hk)

/-- A lane vector [c] laid out as [1, 1, c] and repeated over a tile [a, b, c] holds, at (r, s, k), the
    vector's entry k. -/
theorem lanevec_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ v h1) h2 (ix3 r s k) = v (ix1 k) := by
  refine (broadcastTo_apply _ h2 (ix3 r s k) (ix3 (⟨0, Nat.one_pos⟩ : Fin 1) (⟨0, Nat.one_pos⟩ : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_one]
      show k.val = (0 * 1 + 0) * c + k.val
      rw [Nat.zero_mul, Nat.zero_add])

/-- A vector [c] laid out as one row [1, c] and repeated over [a, c] holds, at (r, k), the vector's entry k. -/
theorem rowvec_apply {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (r : Fin a) (k : Fin c) :
    broadcastTo ⟨2, ![a, c]⟩ (shapeCast ⟨2, ![1, c]⟩ v h1) h2 (ix2 r k) = v (ix1 k) :=
  (broadcastTo_1b_ab_apply _ h2 r k).trans (shapeCast_a_1a_apply v h1 _ k)

end Cert.LibTile

end
-- ==== Proof.Rearrange.lean ====
/-
  The two arrangements of the layer agree. Listing the 8192 × 4 input rows as a 32768 × 1024 matrix (row (s, b) becomes
  row 4·s + b), laying the bias out as one row, applying the layer to the matrix, and reading the 32768 × 4096 result
  back as 8192 × 4 rows gives the layer on the input as given: entry (s, b, o) of the result read back is entry
  (4·s + b, o) of the matrix result, whose dot product runs over row 4·s + b of the matrix, that is input row (s, b). A
  change of number format on the weights changes nothing over the extended reals.
-/
import proofs.«175557_j44856638439896_2_alg».proof.Proof.Spec
import proofs.«175557_j44856638439896_2_alg».proof.Proof.LibTile
import Idealize.ShloMosaic.Lib.ValueLayout

noncomputable section

open scoped BigOperators

namespace Cert.Linear

open Idealize.ShloMosaic Idealize.ShloMosaic.ValueIdx

theorem layerRows_listed (x : FVec Ideal ⟨3, ![8192, 4, 1024]⟩ .f32) (w : FVec Ideal ⟨2, ![4096, 1024]⟩ .f32)
    (bias : FVec Ideal ⟨1, ![4096]⟩ .f32)
    (hx : (⟨3, ![8192, 4, 1024]⟩ : Shape).ShapeCasts ⟨2, ![32768, 1024]⟩)
    (hb : (⟨1, ![4096]⟩ : Shape).ShapeCasts ⟨2, ![1, 4096]⟩)
    (ho : (⟨2, ![32768, 4096]⟩ : Shape).ShapeCasts ⟨3, ![8192, 4, 4096]⟩)
    (hlt : FTy.bits .bf16 < FTy.bits .f32) :
    shapeCast ⟨3, ![8192, 4, 4096]⟩
        (layerRows (shapeCast ⟨2, ![32768, 1024]⟩ x hx) (truncf .bf16 w hlt) (shapeCast ⟨2, ![1, 4096]⟩ bias hb)) ho
      = layer x w bias := by
  funext i
  obtain ⟨s, b, o, rfl⟩ : ∃ (s : Fin 8192) (b : Fin 4) (o : Fin 4096), i = ix3 s b o := ⟨i 0, i 1, i 2, eq_ix3 i⟩
  have hs : s.val < 8192 := s.isLt
  have hbb : b.val < 4 := b.isLt
  let r : Fin 32768 := ⟨s.val * 4 + b.val, by omega⟩
  have hr : r.val = s.val * 4 + b.val := rfl
  refine (Cert.LibTile.unflatten_apply _ ho s b o r hr).trans ?_
  show (∑ k : Fin 1024, shapeCast ⟨2, ![32768, 1024]⟩ x hx (ix2 r k) * w (ix2 o k))
      + shapeCast ⟨2, ![1, 4096]⟩ bias hb (ix2 (0 : Fin 1) o)
    = (∑ k : Fin 1024, x (ix3 s b k) * w (ix2 o k)) + bias (ix1 o)
  refine congrArg₂ (· + ·) (Finset.sum_congr rfl fun k _ => congrArg (· * w (ix2 o k)) ?_) ?_
  · exact Cert.LibTile.flatten_apply x hx s b k r hr
  · exact shapeCast_a_1a_apply bias hb (0 : Fin 1) o

end Cert.Linear

end
-- ==== Proof.KernelRun.lean ====
/-
  The kernel program as a whole. Before the region the input's rows are listed as one matrix, the bias is laid out as one
  row and the weights change number format; the region leaves the layer applied to that matrix in its result array; after
  the region the result is read back as 8192 × 4 rows. So the program's result is the layer on the input as given, and
  the three argument arrays end as they began.
-/
import proofs.«175557_j44856638439896_2_alg».proof.Proof.KernelBlocks
import proofs.«175557_j44856638439896_2_alg».proof.Proof.Rearrange
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The rows as the region finds them: the input's rows listed as one matrix. -/
theorem rows_entry (c : Dev nD) :
    (Blocks.rowsIn m c : S32768x1024.Idx → EReal)
      = shapeCast S32768x1024 (m ((c : Thread nD τ).loc main_arg0)) shapeCasts_S8192x4x1024_S32768x1024 := by
  show StableHlo.after hostOps0 (fun b => m (c, b)) (Proc.devRef .tc main_v0) = _
  after_results
  rfl

/-- The bias row as the region finds it: the bias laid out as one row. -/
theorem bias_entry (c : Dev nD) :
    (Blocks.biasIn m c : S1x4096.Idx → EReal)
      = shapeCast S1x4096 (m ((c : Thread nD τ).loc main_arg2)) shapeCasts_S4096_S1x4096 := by
  show StableHlo.after hostOps0 (fun b => m (c, b)) (Proc.devRef .tc main_v1) = _
  after_results
  rfl

/-- The weights as the region finds them: the weights in the narrower number format. -/
theorem weights_entry (c : Dev nD) :
    (Blocks.weightsIn m c : S4096x1024.Idx → EReal)
      = truncf .bf16 (m ((c : Thread nD τ).loc main_arg1)) bitsLt_bf16_f32 := by
  show StableHlo.after hostOps0 (fun b => m (c, b)) (Proc.devRef .tc main_v2) = _
  after_results

/-- The program's result after the lines that follow the region: the layer on the input as given. -/
theorem result_eq (c : Dev nD) :
    Pipeline.afterTail₀ cfgs (dats m) 0 (V0 m) [hostOps1] c main_v4
      = Cert.Linear.layer (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have harr := (Pipeline.withArrays_arr spec0 launch0.win.arr_inj c (V0 m c)
    (fun w => (dats m 0 c).arrAt w cfg0.N) 3).trans (Blocks.result_array m c)
  refine (congrArg (fun Y : S32768x4096.Idx → EReal => shapeCast S8192x4x4096 Y shapeCasts_S32768x4096_S8192x4x4096) harr).trans ?_
  rw [rows_entry, weights_entry, bias_entry]
  exact Cert.Linear.layerRows_listed _ _ _ _ _ _ _

/-- Every weakly fair execution of the program ends with its result holding the layer on the input as given and its three
    argument arrays unchanged. -/
theorem run : θ_run defs (onTc (τ := τ) (main (F := Ideal))) ⟨m, fun _ => 0, ρ⟩ fun r => ∀ c : Dev nD,
      r.2.mem ((c.tc : Thread nD τ).loc main_v4)
        = Cert.Linear.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Whole

end
-- ==== Proof.ReferenceEntry.lean ====
/-
  The reference is the layer. Its contraction of the input's last axis with the weights' last axis is, entry by entry over
  the extended reals, the dot product of input row (s, b) with weight row o; the bias, laid out along the last axis and
  repeated over the first two, contributes its entry o.
-/
import proofs.«175557_j44856638439896_2_alg».proof.Proof.Gen.ReferenceIdeal.Read
import proofs.«175557_j44856638439896_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

theorem reference_eq (x : (⟨S8192x4x1024, .f32⟩ : BufTy).Contents (Elt Ideal)) (w : (⟨S4096x1024, .f32⟩ : BufTy).Contents (Elt Ideal))
    (bias : (⟨S4096, .f32⟩ : BufTy).Contents (Elt Ideal)) :
    val_main_v3 (F := Ideal) x w bias = Cert.Linear.layer x w bias := by
  funext i
  have el : ∀ k : Fin 1024, lidx_main_v0 i k = ix3 (i 0) (i 1) k := fun k => funext fun a => Fin.ext (by
    match a with
    | ⟨0, _⟩ => rfl
    | ⟨1, _⟩ => rfl
    | ⟨2, _⟩ => rfl)
  have er : ∀ k : Fin 1024, ridx_main_v0 i k = ix2 (i 2) k := fun k => funext fun a => Fin.ext (by
    match a with
    | ⟨0, _⟩ => rfl
    | ⟨1, _⟩ => rfl)
  have eb : idx_main_v1 (idx_main_v2 i) = ix1 (i 2) := funext fun a => Fin.ext (by
    match a with
    | ⟨0, _⟩ => rfl)
  rw [val_main_v3_apply, val_main_v0_apply, val_main_v2_apply, val_main_v1_apply]
  simp only [el, er, eb]
  rfl

end Cert.ReferenceIdeal.RefValue

end
-- ==== Proof.lean ====
/-
  A linear layer computed by a tiled kernel, against its one-line reference, over the extended reals.

  The kernel lists the 8192 × 4 input rows as a 32768 × 1024 matrix, and at each of 64 grid points multiplies 512 of those
  rows by the transpose of the weight matrix and adds the bias; afterwards the result is read back as 8192 × 4 rows. The
  reference contracts the input's last axis with the weights' last axis and adds the bias. Entry (s, b, o) of either result
  is the dot product of input row (s, b) with weight row o, plus bias entry o: the two programs compute the same function,
  with no law of arithmetic needed beyond reading both sums over the same index set in the same order, so the inputs'
  finiteness is never used. The idealization rewrote nothing, so it is preserved trivially; the frames are the generated
  ones, the reference's being its generated run with the result dropped.
-/
import proofs.«175557_j44856638439896_2_alg».proof.Defs
import proofs.«175557_j44856638439896_2_alg».proof.Proof.Gen.Kernel
import proofs.«175557_j44856638439896_2_alg».proof.Proof.Gen.Kernel.Skeleton
import proofs.«175557_j44856638439896_2_alg».proof.Proof.Gen.Kernel.Launch
import proofs.«175557_j44856638439896_2_alg».proof.Proof.Gen.Kernel.Points
import proofs.«175557_j44856638439896_2_alg».proof.Proof.Gen.Kernel.Frame
import proofs.«175557_j44856638439896_2_alg».proof.Proof.Gen.KernelIdeal
import proofs.«175557_j44856638439896_2_alg».proof.Proof.Gen.KernelIdeal.Skeleton
import proofs.«175557_j44856638439896_2_alg».proof.Proof.Gen.KernelIdeal.Launch
import proofs.«175557_j44856638439896_2_alg».proof.Proof.Gen.KernelIdeal.Points
import proofs.«175557_j44856638439896_2_alg».proof.Proof.Gen.KernelIdeal.Frame
import proofs.«175557_j44856638439896_2_alg».proof.Proof.Gen.ReferenceIdeal
import proofs.«175557_j44856638439896_2_alg».proof.Proof.Gen.ReferenceIdeal.Run
import proofs.«175557_j44856638439896_2_alg».proof.Proof.Gen.ReferenceIdeal.Read
import proofs.«175557_j44856638439896_2_alg».proof.Proof.Gen.Pre_finite_inputs
import proofs.«175557_j44856638439896_2_alg».proof.Proof.KernelRun
import proofs.«175557_j44856638439896_2_alg».proof.Proof.ReferenceEntry
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; its frame is that run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their arguments in their result, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
